-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1600000x2 : Shape := ⟨2, ![1600000, 2]⟩
abbrev S1600000 : Shape := ⟨1, ![1600000]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S8192x4096 .f32) (main_arg1 : IVec S1600000x2 32) (main_arg2 : FVec F S1600000 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  main_v8
-- ==== Kernel.lean ====
abbrev S8192x4096 : Shape := ⟨2, ![8192, 4096]⟩
abbrev S1600000x2 : Shape := ⟨2, ![1600000, 2]⟩
abbrev S1600000 : Shape := ⟨1, ![1600000]⟩
abbrev S1600000x1 : Shape := ⟨2, ![1600000, 1]⟩
abbrev S_ : Shape := ⟨0, ![]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 30
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1600000x2, .i32⟩
  | .hbm, ⟨2, _⟩ => ⟨S1600000, .f32⟩
  | .hbm, ⟨3, _⟩ => ⟨S1600000x1, .i32⟩
  | .hbm, ⟨4, _⟩ => ⟨S1600000, .i32⟩
  | .hbm, ⟨5, _⟩ => ⟨S1600000x1, .i32⟩
  | .hbm, ⟨6, _⟩ => ⟨S1600000, .i32⟩
  | .hbm, ⟨7, _⟩ => ⟨S_, .f32⟩
  | .hbm, ⟨8, _⟩ => ⟨S4096x4096, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .i32⟩
  | .hbm, ⟨25, _⟩ => ⟨S1600000x2, .i32⟩
  | .hbm, ⟨26, _⟩ => ⟨S4096x4096, .f32⟩
  | .hbm, ⟨27, _⟩ => ⟨S8192x4096, .bf16⟩
  | .hbm, ⟨28, _⟩ => ⟨S4096x4096, .bf16⟩
  | .hbm, ⟨29, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  scatter_S4096x4096_S1600000x2_S1600000_n_01_01_1_wf : ScatterDims.WF S4096x4096 S1600000x2 S1600000 [] [0, 1] [0, 1] 1
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v19) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1600000x2 : Shape := ⟨2, ![1600000, 2]⟩
abbrev S1600000 : Shape := ⟨1, ![1600000]⟩
abbrev S1600000x1 : Shape := ⟨2, ![1600000, 1]⟩
abbrev S_ : Shape := ⟨0, ![]⟩
abbrev S4096x4096 : Shape := ⟨2, ![4096, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1600000x2, .i32⟩
  | .hbm, ⟨2, _⟩ => ⟨S1600000, .f32⟩
  | .hbm, ⟨3, _⟩ => ⟨S1600000x1, .i32⟩
  | .hbm, ⟨4, _⟩ => ⟨S1600000, .i32⟩
  | .hbm, ⟨5, _⟩ => ⟨S1600000x1, .i32⟩
  | .hbm, ⟨6, _⟩ => ⟨S1600000, .i32⟩
  | .hbm, ⟨7, _⟩ => ⟨S_, .f32⟩
  | .hbm, ⟨8, _⟩ => ⟨S4096x4096, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .i32⟩
  | .hbm, ⟨25, _⟩ => ⟨S1600000x2, .i32⟩
  | .hbm, ⟨26, _⟩ => ⟨S4096x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S_S8192x4096 : S_.BroadcastsInDim S8192x4096 (![] : Fin 0 → Fin S8192x4096.rank)
  scatter_S4096x4096_S1600000x2_S1600000_n_01_01_1_wf : ScatterDims.WF S4096x4096 S1600000x2 S1600000 [] [0, 1] [0, 1] 1
  dot_S8192x4096_S4096x4096_S8192x4096_1_1_0_0_n_n_wf : DotDims.WF S8192x4096 S4096x4096 S8192x4096 [1] [1] [0] [0] [] []

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KPieces.lean ====
/-
  What one grid point leaves behind, as values.

  At an even point the body clears the accumulator and adds the product of the point's two blocks to it; at an odd
  point it adds the product to what the point before left, and stores the positive part of the sum as the output block.
-/
import proofs.«111190_j13795434954806_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- An odd point leaves in the accumulator what the point before left plus the product of its own two blocks. -/
theorem acc_B (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 : Vec F S1024x2048 .bf16) (x1 : Vec F S2048x1024 .bf16) (xs : Vec F S1024x1024 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread,
    View.ld_unit_zero (S := S1024x1024) hz, View.ld_unit_zero (S := S1024x2048) hz, View.ld_unit_zero (S := S2048x1024) hz]

/-- An odd point stores, as the output block, the positive part of the accumulator it has just updated. -/
theorem out_B (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 : Vec F S1024x2048 .bf16) (x1 : Vec F S2048x1024 .bf16) (xs : Vec F S1024x1024 .f32) :
    out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero (S := S1024x1024) _ hz]
  simp only [View.readAt_eq_ld, h3.read_unread, h4.read_unread, h6.read_unread,
    View.ld_unit_zero (S := S1024x1024) hz, View.ld_unit_zero (S := S1024x2048) hz, View.ld_unit_zero (S := S2048x1024) hz]

/-- An even point clears the accumulator first, so it leaves the product of its own two blocks added to the zero block. -/
theorem acc_A (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i)
    (x0 : Vec F S1024x2048 .bf16) (x1 : Vec F S2048x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread,
    View.ld_unit_zero (S := S1024x1024) hz, View.ld_unit_zero (S := S1024x2048) hz, View.ld_unit_zero (S := S2048x1024) hz]

end Cert.KernelIdeal.Pieces

end
-- ==== Proof.KPayload.lean ====
/-
  The body's arithmetic, entry by entry, over the extended reals.

  The cleared accumulator is zero everywhere; an accumulation adds to entry (p, q) the inner product of row p of the
  left block with column q of the right block, 2048 terms; the stored output is the larger of the accumulator's entry
  and zero.
-/
import proofs.«111190_j13795434954806_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The cleared accumulator holds zero at every entry. -/
theorem cleared_apply (y : S1024x1024.Idx) : k0_pay1 (F := Ideal) y = 0 := by
  unfold k0_pay1
  rw [shapeCast_self]
  exact Ideal.ofBits_zero_f32

theorem lhs_row (j : S1024x1024.Idx) (q : dot_S1024x2048_S2048x1024_S1024x1024_1_0_0_1_n_n.contr.Idx) :
    (dot_S1024x2048_S2048x1024_S1024x1024_1_0_0_1_n_n.lhsIdx j q 0).val = (j 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_inner (j : S1024x1024.Idx) (q : dot_S1024x2048_S2048x1024_S1024x1024_1_0_0_1_n_n.contr.Idx) :
    (dot_S1024x2048_S2048x1024_S1024x1024_1_0_0_1_n_n.lhsIdx j q 1).val = (q ⟨0, by decide⟩).val :=
  dot_S1024x2048_S2048x1024_S1024x1024_1_0_0_1_n_n.lhsIdx_val_of_single rfl j q
theorem rhs_inner (j : S1024x1024.Idx) (q : dot_S1024x2048_S2048x1024_S1024x1024_1_0_0_1_n_n.contr.Idx) :
    (dot_S1024x2048_S2048x1024_S1024x1024_1_0_0_1_n_n.rhsIdx j q 0).val = (q ⟨0, by decide⟩).val :=
  dot_S1024x2048_S2048x1024_S1024x1024_1_0_0_1_n_n.rhsIdx_val_of_single rfl j q
theorem rhs_col (j : S1024x1024.Idx) (q : dot_S1024x2048_S2048x1024_S1024x1024_1_0_0_1_n_n.contr.Idx) :
    (dot_S1024x2048_S2048x1024_S1024x1024_1_0_0_1_n_n.rhsIdx j q 1).val = (j 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- One accumulation: entry (p, q) gains the inner product of the left block's row p and the right block's column q. -/
theorem accumulate_apply (acc : Vec Ideal S1024x1024 .f32) (a : Vec Ideal S1024x2048 .bf16) (b : Vec Ideal S2048x1024 .bf16)
    (p q : Fin 1024) :
    k0_pay2 (F := Ideal) acc a b (ix2 p q) = acc (ix2 p q) + ∑ k : Fin 2048, a (ix2 p k) * b (ix2 k q) := by
  unfold k0_pay2
  simp only [shapeCast_self]
  show acc (ix2 p q) + FloatOps.matmul (F := Ideal) dot_S1024x2048_S2048x1024_S1024x1024_1_0_0_1_n_n none a b (constant (F := Ideal) S1024x1024 .f32 0x00000000#32) (ix2 p q) = _
  rw [Ideal.matmul_constant_zero_apply, ← Equiv.sum_comp (contrEquiv1 dot_S1024x2048_S2048x1024_S1024x1024_1_0_0_1_n_n 2048 rfl rfl).symm]
  refine congrArg (acc (ix2 p q) + ·) (Finset.sum_congr rfl fun k _ => ?_)
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun x => Fin.ext (by
    match x with
    | ⟨0, _⟩ => exact lhs_row _ _
    | ⟨1, _⟩ => exact (lhs_inner _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun x => Fin.ext (by
    match x with
    | ⟨0, _⟩ => exact (rhs_inner _ _).trans hk
    | ⟨1, _⟩ => exact rhs_col _ _)
  rw [el, er]

/-- The stored output entry is the larger of the accumulator's entry and zero. -/
theorem positive_part_apply (v : Vec Ideal S1024x1024 .f32) (y : S1024x1024.Idx) :
    k0_pay3 (F := Ideal) v y = max (v y) (Ideal.ofBits .f32 0x00000000#32) := rfl

end Cert.KernelIdeal.Payload

end
-- ==== Proof.Dense.lean ====
/-
  The layer both programs compute: the positive part of activations times weights.

  Entry (r, c) of the result is max(Σ_k x[r, k] · w[k, c], 0), the sum over all 4096 input features.  A sum over 4096
  terms is the sum over the first 2048 plus the sum over the last 2048 — the only law the comparison needs besides
  adding zero, and it holds in any commutative monoid, the extended reals included, with no finiteness assumed.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- Activations (and the result), and weights. -/
abbrev SX : Shape := ⟨2, ![8192, 4096]⟩
abbrev SW : Shape := ⟨2, ![4096, 4096]⟩

/-- The layer: `w` is indexed (input feature, output unit). -/
def layer (x : SX.Idx → EReal) (w : SW.Idx → EReal) : SX.Idx → EReal :=
  fun i => max (∑ k : Fin 4096, x (ix2 (i 0) k) * w (ix2 k (i 1))) (Ideal.ofBits .f32 0x00000000#32)

/-- The first and the second 2048 of 4096 positions. -/
abbrev lo (k : Fin 2048) : Fin 4096 := ⟨k.val, by have := k.isLt; omega⟩
abbrev hi (k : Fin 2048) : Fin 4096 := ⟨2048 + k.val, by have := k.isLt; omega⟩

/-- A sum over 4096 terms, in two halves, the first accumulated from zero. -/
theorem sum_halves {M : Type*} [AddCommMonoid M] (f : Fin 4096 → M) :
    ∑ k : Fin 4096, f k = (0 + ∑ k : Fin 2048, f (lo k)) + ∑ k : Fin 2048, f (hi k) := by
  rw [zero_add]
  exact Fin.sum_univ_add (a := 2048) (b := 2048) (f : Fin (2048 + 2048) → M)

end Cert.Dense

end
-- ==== Proof.KPair.lean ====
/-
  Two consecutive grid points make one output block.

  The even point clears the accumulator and adds the products over the first 2048 input features; the odd point adds
  the products over the last 2048 and stores the positive part.  Entry (p, q) of what is stored is therefore
  max((0 + Σ_{k < 2048} x[r, k]·w[k, c]) + Σ_{k < 2048} x[r, 2048 + k]·w[2048 + k, c], 0), which is the layer's entry
  (r, c): a sum over 4096 terms in two halves.
-/
import proofs.«111190_j13795434954806_2_alg».proof.Proof.KPayload
import proofs.«111190_j13795434954806_2_alg».proof.Proof.Dense

noncomputable section

namespace Cert.KernelIdeal.Pair

open Cert.KernelIdeal Cert.KernelIdeal.Gen Idealize.ShloMosaic Idealize.ShloMosaic.ValueIdx
open Cert.Dense (layer lo hi sum_halves)

/-- If the two points' left blocks are row `r` of `x` over the first and the last 2048 features, and their right blocks
    column `c` of `w` over the same, then entry (p, q) of the stored block is the layer's entry (r, c). -/
theorem stored_entry (x : S8192x4096.Idx → EReal) (w : S4096x4096.Idx → EReal)
    (a0 a1 : Vec Ideal S1024x2048 .bf16) (b0 b1 : Vec Ideal S2048x1024 .bf16)
    (p q : Fin 1024) (r : Fin 8192) (c : Fin 4096)
    (ha0 : ∀ k : Fin 2048, a0 (ix2 p k) = x (ix2 r (lo k))) (ha1 : ∀ k : Fin 2048, a1 (ix2 p k) = x (ix2 r (hi k)))
    (hb0 : ∀ k : Fin 2048, b0 (ix2 k q) = w (ix2 (lo k) c)) (hb1 : ∀ k : Fin 2048, b1 (ix2 k q) = w (ix2 (hi k) c)) :
    k0_pay3 (F := Ideal) (k0_pay2 (k0_pay2 k0_pay1 a0 b0) a1 b1) (ix2 p q) = layer x w (ix2 r c) := by
  rw [Payload.positive_part_apply, Payload.accumulate_apply, Payload.accumulate_apply, Payload.cleared_apply]
  unfold layer
  rw [sum_halves]
  simp only [ha0, ha1, hb0, hb1]

end Cert.KernelIdeal.Pair

end
-- ==== Proof.KBlocks.lean ====
/-
  The blocks a grid point works on.

  Point t of the 8 × 4 × 2 grid has row-block t / 8, column-block (t / 2) mod 4 and reduction step t mod 2.  Its left
  block is rows 1024·(t / 8) … of the activations, columns 2048·(t mod 2) …; its right block is rows 2048·(t mod 2) …
  of the weights, columns 1024·((t / 2) mod 4) …; its output block is rows 1024·(t / 8) …, columns
  1024·((t / 2) mod 4) … of the result.
-/
import proofs.«111190_j13795434954806_2_alg».proof.Proof.Gen.KernelIdeal.Frame
import Idealize.ShloMosaic.Lib.Pipeline.Value

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The three index maps in closed form, decided over the 64 points. -/
theorem index_facts : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = t.val / 8 ∧ win0_2.index t (1 : Fin 2) = t.val / 2 % 4 :=
  (by decide +kernel : ∀ t : Fin grid0.N, _)

/-- The left block at point `t`, entry `y`, is the staged activations at row 1024·(t / 8) + y₀, column 2048·(t mod 2) + y₁. -/
theorem left_block_apply (c : Dev nD) (t : Fin cfg0.N) (y : S1024x2048.Idx) (k : S8192x4096.Idx)
    (hk0 : (k 0).val = 1024 * (t.val / 8) + (y 0).val) (hk1 : (k 1).val = 2048 * (t.val % 2) + (y 1).val) :
    (iblk m c 0 t : Vec F S1024x2048 .bf16) y = (V m c main_v19 : S8192x4096.Idx → Elt F .bf16) k := by
  obtain ⟨e0, e1, -, -, -, -⟩ := index_facts t
  unfold iblk
  rw [View.read_apply]
  show V m c main_v19 _ = V m c main_v19 k
  refine congrArg (V m c main_v19) (funext fun a => Fin.ext ?_)
  match a with
  | ⟨0, _⟩ => show win0_0.index t 0 * 1024 + 1 * (y 0).val = (k 0).val; rw [e0, hk0]; omega
  | ⟨1, _⟩ => show win0_0.index t 1 * 2048 + 1 * (y 1).val = (k 1).val; rw [e1, hk1]; omega

/-- The right block at point `t`, entry `y`, is the staged weights at row 2048·(t mod 2) + y₀, column 1024·((t / 2) mod 4) + y₁. -/
theorem right_block_apply (c : Dev nD) (t : Fin cfg0.N) (y : S2048x1024.Idx) (k : S4096x4096.Idx)
    (hk0 : (k 0).val = 2048 * (t.val % 2) + (y 0).val) (hk1 : (k 1).val = 1024 * (t.val / 2 % 4) + (y 1).val) :
    (iblk m c 1 t : Vec F S2048x1024 .bf16) y = (V m c main_v20 : S4096x4096.Idx → Elt F .bf16) k := by
  obtain ⟨-, -, e0, e1, -, -⟩ := index_facts t
  unfold iblk
  rw [View.read_apply]
  show V m c main_v20 _ = V m c main_v20 k
  refine congrArg (V m c main_v20) (funext fun a => Fin.ext ?_)
  match a with
  | ⟨0, _⟩ => show win0_1.index t 0 * 2048 + 1 * (y 0).val = (k 0).val; rw [e0, hk0]; omega
  | ⟨1, _⟩ => show win0_1.index t 1 * 1024 + 1 * (y 1).val = (k 1).val; rw [e1, hk1]; omega

end Cert.KernelIdeal.Blocks

end
-- ==== Proof.KHost.lean ====
/-
  What the matrix kernel is launched on.

  Before the launch the program builds the dense weight array on the host: each of the two columns of the index table
  has its negative entries raised by 4096, the second column is set beside the first as (input feature, output unit)
  pairs, and the values are scatter-added at those pairs into a 4096 × 4096 array of zeros.  The two staged arrays are
  the activations and that weight array, each changed to the narrower float format — which changes nothing over the
  extended reals.
-/
import proofs.«111190_j13795434954806_2_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- A column of the index table (the slice at column offset `off`, as a vector) with its negative entries raised by 4096. -/
def wrapped (x1 : IVec S1600000x2 32) (off : Fin 2 → Nat) (hs : S1600000x2.Slices off S1600000x1) : IVec S1600000 32 :=
  select (cmpi .slt (shapeCast S1600000 (extractStridedSlice S1600000x1 off x1 hs) shapeCasts_S1600000x1_S1600000)
      (broadcastInDim S1600000 ![] bcast_S_S1600000 (constantI S_ 32 0#32)))
    (addi (shapeCast S1600000 (extractStridedSlice S1600000x1 off x1 hs) shapeCasts_S1600000x1_S1600000)
      (broadcastInDim S1600000 ![] bcast_S_S1600000 (constantI S_ 32 4096#32)))
    (shapeCast S1600000 (extractStridedSlice S1600000x1 off x1 hs) shapeCasts_S1600000x1_S1600000)

/-- The table the kernel's program scatters at: the second column first, then the first. -/
def pairs (x1 : IVec S1600000x2 32) : IVec S1600000x2 32 :=
  concatenate S1600000x2 1
    [⟨S1600000x1, broadcastInDim S1600000x1 ![0] bcast_S1600000_S1600000x1_0 (wrapped x1 ![0, 1] slices_S1600000x2_S1600000x1_0_1)⟩,
     ⟨S1600000x1, broadcastInDim S1600000x1 ![0] bcast_S1600000_S1600000x1_0 (wrapped x1 ![0, 0] slices_S1600000x2_S1600000x1_0_0)⟩]
    concatenates_S1600000x1_S1600000x1_S1600000x2_d1

/-- The dense weight array: the values scatter-added into zeros at those pairs. -/
def weights (x1 : IVec S1600000x2 32) (x2 : FVec F S1600000 .f32) : FVec F S4096x4096 .f32 :=
  Host.scatterAdd scatter_S4096x4096_S1600000x2_S1600000_n_01_01_1
    (broadcastInDim S4096x4096 ![] bcast_S_S4096x4096 (constant S_ .f32 0x00000000#32)) (pairs x1) x2

/-- The first staged array is the activations, narrowed. -/
theorem found_x (c : Dev nD) :
    (V m c main_v19 : S8192x4096.Idx → F .bf16) = truncf .bf16 (m ((c : Thread nD τ).loc main_arg0)) bitsLt_bf16_f32 := by
  dsimp only [Gen.V, Gen.hostOps0]
  after_results <;> rfl

set_option maxHeartbeats 2000000 in
/-- The second staged array is the dense weight array, narrowed. -/
theorem found_w (c : Dev nD) :
    (V m c main_v20 : S4096x4096.Idx → F .bf16)
      = truncf .bf16 (weights (F := F) (m ((c : Thread nD τ).loc main_arg1)) (m ((c : Thread nD τ).loc main_arg2))) bitsLt_bf16_f32 := by
  unfold weights pairs wrapped
  dsimp only [Gen.V, Gen.hostOps0]
  after_results <;> rfl

end Cert.KernelIdeal.HostSide

end
-- ==== Proof.KValue.lean ====
/-
  The kernel's result array, whole.

  Every odd grid point writes back one 1024 × 1024 block of the result, and the 32 odd points' blocks tile the
  8192 × 4096 array; each written block is the layer of the staged activations and weights restricted to the block's
  rows and columns.  So after the run the result array is the layer of the activations and the scattered weights.
-/
import proofs.«111190_j13795434954806_2_alg».proof.Proof.Gen.KernelIdeal.Value
import proofs.«111190_j13795434954806_2_alg».proof.Proof.KPieces
import proofs.«111190_j13795434954806_2_alg».proof.Proof.KPair
import proofs.«111190_j13795434954806_2_alg».proof.Proof.KBlocks
import proofs.«111190_j13795434954806_2_alg».proof.Proof.KHost

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)
open Cert.Dense (layer lo hi)

variable (m : (ℓ : Loc nD τ sig) → Buf (Elt Ideal) ℓ) (ρ : Dev nD → PrngReg)

/-- The layer of the two staged arrays as the launch finds them. -/
abbrev staged (c : Dev nD) : S8192x4096.Idx → EReal :=
  layer (V m c main_v19 : S8192x4096.Idx → EReal) (V m c main_v20 : S4096x4096.Idx → EReal)

/-- What an odd point writes back is its block of the layer of the staged arrays. -/
theorem flushed_eq (c : Dev nD) (t : Fin cfg0.N) (hf : (cfg0.win 2).flush t = true) :
    (dats m 0 c).flushed 2 t = ((cfg0.win 2).blk t).view.read (Elt Ideal) (staged m c) := by
  have h1 : t.val % 2 = 1 := (flush0_2 t).mp hf
  have h0 : ¬t.val % 2 = 0 := by omega
  have hN : t.val < 64 := lt_of_lt_of_eq t.isLt (show cfg0.N = 64 from N_0)
  have hp : t.val - 1 < cfg0.N := Nat.lt_of_le_of_lt (Nat.sub_le _ _) t.isLt
  have hA := outsAt0_A m c ⟨t.val - 1, hp⟩ (by show (t.val - 1) % 2 = 0; omega) (by show ¬(t.val - 1) % 2 = 1; omega)
  rw [Value.flushed2_B m c t h0 h1, Pieces.out_B]
  rw [show (outsAt0 m c (t.val - 1) hp).2 = _ from congrArg Prod.snd hA]
  dsimp only
  rw [Pieces.acc_A]
  obtain ⟨-, -, -, -, e0, e1⟩ := Blocks.index_facts t
  -- the four input blocks of the two points, as rows of the activations and columns of the weights
  have ha0 : ∀ (p : Fin 1024) (hr : 1024 * (t.val / 8) + p.val < 8192) (k : Fin 2048),
      (iblk m c 0 ⟨t.val - 1, hp⟩ : Vec Ideal S1024x2048 .bf16) (ix2 p k)
        = (V m c main_v19 : S8192x4096.Idx → EReal) (ix2 (⟨1024 * (t.val / 8) + p.val, hr⟩ : Fin 8192) (lo k)) :=
    fun p hr k => Blocks.left_block_apply m c ⟨t.val - 1, hp⟩ (ix2 p k) _
      (by show 1024 * (t.val / 8) + p.val = 1024 * ((t.val - 1) / 8) + p.val; omega)
      (by show k.val = 2048 * ((t.val - 1) % 2) + k.val; omega)
  have ha1 : ∀ (p : Fin 1024) (hr : 1024 * (t.val / 8) + p.val < 8192) (k : Fin 2048),
      (iblk m c 0 t : Vec Ideal S1024x2048 .bf16) (ix2 p k)
        = (V m c main_v19 : S8192x4096.Idx → EReal) (ix2 (⟨1024 * (t.val / 8) + p.val, hr⟩ : Fin 8192) (hi k)) :=
    fun p hr k => Blocks.left_block_apply m c t (ix2 p k) _
      (by show 1024 * (t.val / 8) + p.val = 1024 * (t.val / 8) + p.val; rfl)
      (by show 2048 + k.val = 2048 * (t.val % 2) + k.val; omega)
  have hb0 : ∀ (q : Fin 1024) (hc : 1024 * (t.val / 2 % 4) + q.val < 4096) (k : Fin 2048),
      (iblk m c 1 ⟨t.val - 1, hp⟩ : Vec Ideal S2048x1024 .bf16) (ix2 k q)
        = (V m c main_v20 : S4096x4096.Idx → EReal) (ix2 (lo k) (⟨1024 * (t.val / 2 % 4) + q.val, hc⟩ : Fin 4096)) :=
    fun q hc k => Blocks.right_block_apply m c ⟨t.val - 1, hp⟩ (ix2 k q) _
      (by show k.val = 2048 * ((t.val - 1) % 2) + k.val; omega)
      (by show 1024 * (t.val / 2 % 4) + q.val = 1024 * ((t.val - 1) / 2 % 4) + q.val; omega)
  have hb1 : ∀ (q : Fin 1024) (hc : 1024 * (t.val / 2 % 4) + q.val < 4096) (k : Fin 2048),
      (iblk m c 1 t : Vec Ideal S2048x1024 .bf16) (ix2 k q)
        = (V m c main_v20 : S4096x4096.Idx → EReal) (ix2 (hi k) (⟨1024 * (t.val / 2 % 4) + q.val, hc⟩ : Fin 4096)) :=
    fun q hc k => Blocks.right_block_apply m c t (ix2 k q) _
      (by show 2048 + k.val = 2048 * (t.val % 2) + k.val; omega)
      (by show 1024 * (t.val / 2 % 4) + q.val = 1024 * (t.val / 2 % 4) + q.val; rfl)
  funext y
  have hy0 : (y 0).val < 1024 := (y 0).isLt
  have hy1 : (y 1).val < 1024 := (y 1).isLt
  have hr : 1024 * (t.val / 8) + (y 0).val < 8192 := by omega
  have hc : 1024 * (t.val / 2 % 4) + (y 1).val < 4096 := by omega
  have hx : ((cfg0.win 2).xinj (grid0.coords t) y : S1024x1024.Idx) = ix2 (⟨(y 0).val, hy0⟩ : Fin 1024) (⟨(y 1).val, hy1⟩ : Fin 1024) :=
    funext fun a => Fin.ext (by
      match a with
      | ⟨0, _⟩ => rfl
      | ⟨1, _⟩ => rfl)
  have he : (((cfg0.win 2).blk t).view.emb y : S8192x4096.Idx)
      = ix2 (⟨1024 * (t.val / 8) + (y 0).val, hr⟩ : Fin 8192) (⟨1024 * (t.val / 2 % 4) + (y 1).val, hc⟩ : Fin 4096) :=
    funext fun a => Fin.ext (by
      match a with
      | ⟨0, _⟩ => show win0_2.index t 0 * 1024 + 1 * (y 0).val = 1024 * (t.val / 8) + (y 0).val; rw [e0]; omega
      | ⟨1, _⟩ => show win0_2.index t 1 * 1024 + 1 * (y 1).val = 1024 * (t.val / 2 % 4) + (y 1).val; rw [e1]; omega)
  show k0_pay3 (F := Ideal) _ ((cfg0.win 2).xinj (grid0.coords t) y) = staged m c (((cfg0.win 2).blk t).view.emb y)
  rw [hx, he]
  exact Pair.stored_entry _ _ _ _ _ _ _ _ _ _ (ha0 _ hr) (ha1 _ hr) (hb0 _ hc) (hb1 _ hc)

/-- An entry of the result is in point `t`'s block when each coordinate is within the block's 1024 rows or columns. -/
theorem mem_blk (t : Fin cfg0.N) (i : S8192x4096.Idx) :
    i ∈ ((cfg0.win 2).blk t).view.set ↔
      ∀ a : Fin 2, win0_2.index t a * S1024x1024.size a ≤ (i a).val ∧ (i a).val < win0_2.index t a * S1024x1024.size a + S1024x1024.size a := by
  show i ∈ ((View.whole main_v21).slice (win0_2.rect t)).set ↔ _
  rw [View.set_slice_whole, Rect.mem_set_unit]
  exact Iff.rfl

/-- Every entry (r, c) of the result is in the block of the odd point with row-block r / 1024 and column-block c / 1024. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 64 := N_0
  have ht : ((i 0).val / 1024 * 4 + (i 1).val / 1024) * 2 + 1 < cfg0.N := by rw [hN]; omega
  refine ⟨⟨((i 0).val / 1024 * 4 + (i 1).val / 1024) * 2 + 1, ht⟩, (flush0_2 _).mpr (by
    show (((i 0).val / 1024 * 4 + (i 1).val / 1024) * 2 + 1) % 2 = 1; omega), ?_⟩
  rw [mem_blk]
  obtain ⟨-, -, -, -, e0, e1⟩ := Blocks.index_facts ⟨((i 0).val / 1024 * 4 + (i 1).val / 1024) * 2 + 1, ht⟩
  intro a
  match a with
  | ⟨0, _⟩ =>
    show win0_2.index _ 0 * 1024 ≤ (i 0).val ∧ (i 0).val < win0_2.index _ 0 * 1024 + 1024
    rw [e0]
    show (((i 0).val / 1024 * 4 + (i 1).val / 1024) * 2 + 1) / 8 * 1024 ≤ (i 0).val
      ∧ (i 0).val < (((i 0).val / 1024 * 4 + (i 1).val / 1024) * 2 + 1) / 8 * 1024 + 1024
    omega
  | ⟨1, _⟩ =>
    show win0_2.index _ 1 * 1024 ≤ (i 1).val ∧ (i 1).val < win0_2.index _ 1 * 1024 + 1024
    rw [e1]
    show (((i 0).val / 1024 * 4 + (i 1).val / 1024) * 2 + 1) / 2 % 4 * 1024 ≤ (i 1).val
      ∧ (i 1).val < (((i 0).val / 1024 * 4 + (i 1).val / 1024) * 2 + 1) / 2 % 4 * 1024 + 1024
    omega

/-- After the run the result array is the layer of the staged arrays. -/
theorem final (c : Dev nD) : (dats m 0 c).arrAt 2 cfg0.N = staged m c :=
  (dats m 0 c).arrAt_eq_of_cover 2 (staged m c) (fun t hf => flushed_eq m c t hf) covered

/-- Narrowing the float format is the identity over the extended reals. -/
theorem narrow_id {s : Shape} (a : FVec Ideal s .f32) (h : FTy.bits .bf16 < FTy.bits .f32) :
    (truncf .bf16 a h : FVec Ideal s .bf16) = a := rfl

/-- So the staged arrays are the activations and the scattered weights themselves. -/
theorem staged_eq (c : Dev nD) :
    staged m c = layer (m ((c : Thread nD τ).loc main_arg0))
      (HostSide.weights (F := Ideal) (m ((c : Thread nD τ).loc main_arg1)) (m ((c : Thread nD τ).loc main_arg2))) :=
  congrArg₂ layer ((HostSide.found_x m c).trans (narrow_id _ _)) ((HostSide.found_w m c).trans (narrow_id _ _))

/-- The kernel's run: the result array ends at the layer of the activations and the scattered weights, the arguments
    unchanged. -/
theorem run : θ_run defs (onTc (τ := τ) (main (F := Ideal))) ⟨m, fun _ => 0, ρ⟩ fun r => ∀ c : Dev nD,
      r.2.mem ((c : Thread nD τ).loc main_v21) = layer (m ((c : Thread nD τ).loc main_arg0))
        (HostSide.weights (F := Ideal) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (staged_eq m c)), (h c).2⟩)
    (Value.run_blocks m ρ)

end Cert.KernelIdeal.Layer

end
-- ==== Proof.ScatterPairs.lean ====
/-
  Where an update of a two-column scatter lands.

  The scatter here has no window: every update is one scalar, its target named by the two words of one row of the
  index table, read signed.  Update `j` lands on the entry `(a, b)` of a 4096 × 4096 array exactly when the first
  word of row `j` is `a` and the second is `b`; a row naming a position outside the array lands nowhere.
-/
import Idealize.ShloMosaic.PureOps.Ideal
import Idealize.ShloMosaic.Lib.ValueIdx
import Idealize.ShloMosaic.Lib.Pipeline.Value

noncomputable section

namespace Cert.ScatterPairs

open Idealize.ShloMosaic Idealize.ShloMosaic.ValueIdx

/-- The dense weight array, the index table, and the updates. -/
abbrev SW : Shape := ⟨2, ![4096, 4096]⟩
abbrev ST : Shape := ⟨2, ![1600000, 2]⟩
abbrev SU : Shape := ⟨1, ![1600000]⟩

variable (d : ScatterDims SW ST SU)
  (h1 : d.updateWindowDims = []) (h2 : d.insertedWindowDims = [0, 1])
  (h3 : d.scatterDimsToOperandDims = [0, 1]) (h4 : d.indexVectorDim = 1)

include h1 h2 h3 h4 in
/-- The start of update `j` on axis `a` of the array is word `a` of row `j` of the table, read signed. -/
theorem start_eq (idx : IVec ST 32) (j : SU.Idx) (a : Fin 2) :
    d.start j idx a = (idx (ix2 (j 0) a)).toInt := by
  obtain ⟨uw, iw, sd, iv, wf⟩ := d
  dsimp only at h1 h2 h3 h4
  subst h1 h2 h3 h4
  unfold ScatterDims.start
  have ha : a ∈ ([0, 1] : List (Fin SW.rank)) := by fin_cases a <;> simp
  rw [dif_pos ha]
  congr 2
  funext b
  unfold ScatterDims.siIdx
  have hz : ∀ z : Fin SU.rank, z = 0 := fun z => Fin.ext (by
    have h : z.val < 1 := z.isLt
    show z.val = 0
    omega)
  fin_cases b
  · rw [dif_neg (show ¬ (0 : Nat) = 1 from Nat.zero_ne_one)]
    apply Fin.ext
    unfold ScatterDims.siCoord
    exact congrArg (fun z => (j z).val) (hz _)
  · rw [dif_pos (show (1 : Nat) = 1 from rfl)]
    apply Fin.ext
    show List.idxOf a [0, 1] = a.val
    fin_cases a <;> rfl

include h2 in
/-- No axis of the array is a window axis: the window coordinate is zero. -/
theorem window_eq (j : SU.Idx) (a : Fin 2) : d.window j a = 0 := by
  unfold ScatterDims.window
  have : a ∉ d.sKept := by
    unfold ScatterDims.sKept Shape.kept
    rw [h2]
    fin_cases a <;> decide
  rw [dif_neg this]

include h1 h2 h3 h4 in
/-- Update `j` lands on entry `i` exactly when row `j` of the table spells `i`'s two coordinates. -/
theorem lands_iff (idx : IVec ST 32) (j : SU.Idx) (i : SW.Idx) :
    d.resultIdx? j idx = some i ↔
      (idx (ix2 (j 0) 0)).toInt = ((i 0).val : Int) ∧ (idx (ix2 (j 0) 1)).toInt = ((i 1).val : Int) := by
  have hi0 : (i 0).val < 4096 := (i 0).isLt
  have hi1 : (i 1).val < 4096 := (i 1).isLt
  unfold ScatterDims.resultIdx?
  simp only [start_eq d h1 h2 h3 h4, window_eq d h2]
  split
  · next h =>
    have g0 := h 0
    have g1 := h 1
    rw [Option.some.injEq]
    constructor
    · intro e
      have e0 : ((idx (ix2 (j 0) 0)).toInt + ((0 : Nat) : Int)).toNat = (i 0).val := congrArg (fun f => (f 0).val) e
      have e1 : ((idx (ix2 (j 0) 1)).toInt + ((0 : Nat) : Int)).toNat = (i 1).val := congrArg (fun f => (f 1).val) e
      constructor <;> omega
    · rintro ⟨e0, e1⟩
      funext a
      apply Fin.ext
      fin_cases a
      · show ((idx (ix2 (j 0) 0)).toInt + ((0 : Nat) : Int)).toNat = (i 0).val
        omega
      · show ((idx (ix2 (j 0) 1)).toInt + ((0 : Nat) : Int)).toNat = (i 1).val
        omega
  · next h =>
    constructor
    · intro e; exact absurd e (by simp)
    · rintro ⟨e0, e1⟩
      exfalso
      apply h
      intro a
      fin_cases a
      · show 0 ≤ (idx (ix2 (j 0) 0)).toInt + ((0 : Nat) : Int) ∧ (idx (ix2 (j 0) 0)).toInt + ((0 : Nat) : Int) < ((4096 : Nat) : Int)
        omega
      · show 0 ≤ (idx (ix2 (j 0) 1)).toInt + ((0 : Nat) : Int) ∧ (idx (ix2 (j 0) 1)).toInt + ((0 : Nat) : Int) < ((4096 : Nat) : Int)
        omega

/-! ## The index table: two columns side by side -/

/-- One column of the table. -/
abbrev SC : Shape := ⟨2, ![1600000, 1]⟩

/-- The table made of the columns `u` and `v` has `u` as its first word of each row … -/
theorem table_fst {α : Type} (u v : SU.Idx → α) (hb : SU.BroadcastsInDim SC ![0]) (hc : Shape.Concatenates [SC, SC] ST 1)
    (j : Fin 1600000) :
    concatenate ST 1 [⟨SC, broadcastInDim SC ![0] hb u⟩, ⟨SC, broadcastInDim SC ![0] hb v⟩] hc (ix2 j 0) = u (ix1 j) := by
  rw [concatenate_pair_apply_left (1 : Fin ST.rank) _ _ hc (ix2 j 0) rfl (ix2 j 0) (fun b => by fin_cases b <;> rfl)]
  exact broadcastInDim_apply _ hb u _ (ix1 j) (fun a => by
    fin_cases a
    show j.val = if (1600000 : Nat) = 1 then 0 else j.val
    rw [if_neg (by decide)])

/-- … and `v` as its second. -/
theorem table_snd {α : Type} (u v : SU.Idx → α) (hb : SU.BroadcastsInDim SC ![0]) (hc : Shape.Concatenates [SC, SC] ST 1)
    (j : Fin 1600000) :
    concatenate ST 1 [⟨SC, broadcastInDim SC ![0] hb u⟩, ⟨SC, broadcastInDim SC ![0] hb v⟩] hc (ix2 j 1) = v (ix1 j) := by
  rw [concatenate_pair_apply_right (1 : Fin ST.rank) _ _ hc (ix2 j 1) rfl rfl (ix2 j 0)
    (fun b hb' => by
      fin_cases b
      · rfl
      · exact absurd rfl hb')
    (by show (0 : Nat) + 1 = 1; rfl)]
  exact broadcastInDim_apply _ hb v _ (ix1 j) (fun a => by
    fin_cases a
    show j.val = if (1600000 : Nat) = 1 then 0 else j.val
    rw [if_neg (by decide)])

/-! ## Swapping the columns transposes the scattered array -/

include h1 h2 h3 h4 in
/-- Two such scatters whose tables are each other's with the two words of every row exchanged, over operands
    that are each other's transposes, give arrays that are each other's transposes: an update lands on `(a, b)` in one
    exactly when it lands on `(b, a)` in the other, so the two entries are sums of the same updates. -/
theorem scatter_swap (d' : ScatterDims SW ST SU)
    (h1' : d'.updateWindowDims = []) (h2' : d'.insertedWindowDims = [0, 1])
    (h3' : d'.scatterDimsToOperandDims = [0, 1]) (h4' : d'.indexVectorDim = 1)
    (x x' : FVec Ideal SW .f32) (idx idx' : IVec ST 32) (upd : FVec Ideal SU .f32)
    (hx : ∀ a b : Fin 4096, x (ix2 a b) = x' (ix2 b a))
    (e0 : ∀ j : Fin 1600000, idx (ix2 j 0) = idx' (ix2 j 1))
    (e1 : ∀ j : Fin 1600000, idx (ix2 j 1) = idx' (ix2 j 0)) (a b : Fin 4096) :
    Host.scatterAdd (F := Ideal) (φ := .f32) d x idx upd (ix2 a b)
      = Host.scatterAdd (F := Ideal) (φ := .f32) d' x' idx' upd (ix2 b a) := by
  show Ideal.hostScatterAdd d x idx upd (ix2 a b) = Ideal.hostScatterAdd d' x' idx' upd (ix2 b a)
  unfold Ideal.hostScatterAdd
  rw [hx]
  refine congrArg (fun s => x' (ix2 b a) + s) ?_
  refine Finset.sum_congr (Finset.filter_congr fun j _ => ?_) (fun _ _ => rfl)
  rw [lands_iff d h1 h2 h3 h4, lands_iff d' h1' h2' h3' h4']
  have E0 : (idx (ix2 (j 0) 0)).toInt = (idx' (ix2 (j 0) 1)).toInt := congrArg BitVec.toInt (e0 (j 0))
  have E1 : (idx (ix2 (j 0) 1)).toInt = (idx' (ix2 (j 0) 0)).toInt := congrArg BitVec.toInt (e1 (j 0))
  constructor
  · rintro ⟨p, q⟩
    exact ⟨E1.symm.trans q, E0.symm.trans p⟩
  · rintro ⟨p, q⟩
    exact ⟨E0.trans q, E1.trans p⟩

end Cert.ScatterPairs

end
-- ==== Proof.RefValue.lean ====
/-
  The reference, entry by entry, and why its weights are the kernel's transposed.

  The reference scatters the values at (output unit, input feature) pairs — the index table's columns in their own
  order — and contracts the activations with the second axis of that array; the kernel's program scatters at
  (input feature, output unit) pairs and contracts with the first axis.  The two tables are each other's with the two
  words of every row exchanged (each column has its negative entries raised by 4096 in both programs alike), so the two
  scattered arrays are each other's transposes, and the two contractions are the same sum.
-/
import proofs.«111190_j13795434954806_2_alg».proof.Proof.Gen.ReferenceIdeal.Read
import proofs.«111190_j13795434954806_2_alg».proof.Proof.ScatterPairs
import proofs.«111190_j13795434954806_2_alg».proof.Proof.Dense
import proofs.«111190_j13795434954806_2_alg».proof.Proof.KHost

noncomputable section

namespace Cert.ReferenceIdeal.Layer

open Cert.ReferenceIdeal Cert.ReferenceIdeal.Gen Cert.ReferenceIdeal.Read Idealize.ShloMosaic Idealize.ShloMosaic.ValueIdx
open Cert.Dense (layer)

/-- The reference's result at entry `i`: the positive part of the activations' row contracted with row `i₁` of its
    own scattered array. -/
theorem result_apply (x0 : S8192x4096.Idx → EReal) (x1 : IVec S1600000x2 32) (x2 : S1600000.Idx → EReal) (i : S8192x4096.Idx) :
    val_main_v20 (F := Ideal) x0 x1 x2 i
      = max (∑ k : Fin 4096, x0 (ix2 (i 0) k) * val_main_v18 (F := Ideal) x1 x2 (ix2 (i 1) k)) (Ideal.ofBits .f32 0x00000000#32) := by
  have el : ∀ k : Fin 4096, lidx_main_v19 i k = ix2 (i 0) k := fun k => funext fun a => Fin.ext (by
    match a with
    | ⟨0, _⟩ => rfl
    | ⟨1, _⟩ => rfl)
  have er : ∀ k : Fin 4096, ridx_main_v19 i k = ix2 (i 1) k := fun k => funext fun a => Fin.ext (by
    match a with
    | ⟨0, _⟩ => rfl
    | ⟨1, _⟩ => rfl)
  rw [val_main_v20_apply, val_main_v19_apply, val_main_call0_v0_apply, val_main_call0_cst_apply]
  generalize val_main_v18 (F := Ideal) x1 x2 = w
  simp only [el, er]
  rfl

/-- The first column with its negative entries raised by 4096 is the same vector in both programs … -/
theorem first_col (x1 : IVec S1600000x2 32) (h : S1600000x2.Slices ![0, 0] S1600000x1) :
    val_main_v9 (F := Ideal) x1 = Cert.KernelIdeal.HostSide.wrapped x1 ![0, 0] h := by
  unfold val_main_v9 val_main_v6 val_main_v8 val_main_v1 val_main_v0 val_main_v5 val_main_v7 val_main_c val_main_c_0
    Cert.KernelIdeal.HostSide.wrapped
  rfl

/-- … and so is the second. -/
theorem second_col (x1 : IVec S1600000x2 32) (h : S1600000x2.Slices ![0, 1] S1600000x1) :
    val_main_v14 (F := Ideal) x1 = Cert.KernelIdeal.HostSide.wrapped x1 ![0, 1] h := by
  unfold val_main_v14 val_main_v11 val_main_v13 val_main_v3 val_main_v2 val_main_v10 val_main_v12 val_main_c_1 val_main_c_2
    Cert.KernelIdeal.HostSide.wrapped
  rfl

/-! The two programs' index tables, read a word at a time. -/

theorem ref_table_fst (x1 : IVec S1600000x2 32) (j : Fin 1600000) :
    val_main_v17 (F := Ideal) x1 (ix2 j 0) = val_main_v9 (F := Ideal) x1 (ix1 j) := by
  unfold val_main_v17 val_main_v15 val_main_v16
  exact Cert.ScatterPairs.table_fst (val_main_v9 (F := Ideal) x1) (val_main_v14 (F := Ideal) x1) _ _ j

theorem ref_table_snd (x1 : IVec S1600000x2 32) (j : Fin 1600000) :
    val_main_v17 (F := Ideal) x1 (ix2 j 1) = val_main_v14 (F := Ideal) x1 (ix1 j) := by
  unfold val_main_v17 val_main_v15 val_main_v16
  exact Cert.ScatterPairs.table_snd (val_main_v9 (F := Ideal) x1) (val_main_v14 (F := Ideal) x1) _ _ j

theorem ker_table_fst (x1 : IVec S1600000x2 32) (j : Fin 1600000) :
    Cert.KernelIdeal.HostSide.pairs x1 (ix2 j 0)
      = Cert.KernelIdeal.HostSide.wrapped x1 ![0, 1] Cert.KernelIdeal.Facts₀.slices_S1600000x2_S1600000x1_0_1 (ix1 j) := by
  unfold Cert.KernelIdeal.HostSide.pairs
  exact Cert.ScatterPairs.table_fst _ _ _ _ j

theorem ker_table_snd (x1 : IVec S1600000x2 32) (j : Fin 1600000) :
    Cert.KernelIdeal.HostSide.pairs x1 (ix2 j 1)
      = Cert.KernelIdeal.HostSide.wrapped x1 ![0, 0] Cert.KernelIdeal.Facts₀.slices_S1600000x2_S1600000x1_0_0 (ix1 j) := by
  unfold Cert.KernelIdeal.HostSide.pairs
  exact Cert.ScatterPairs.table_snd _ _ _ _ j

/-- Both programs start the scatter from an array that is zero everywhere. -/
theorem zeros_agree (a b : Fin 4096) :
    val_main_v4 (F := Ideal) (ix2 a b)
      = (broadcastInDim Cert.KernelIdeal.S4096x4096 ![] Cert.KernelIdeal.Facts₀.bcast_S_S4096x4096
          (constant (F := Ideal) Cert.KernelIdeal.S_ .f32 0x00000000#32) : FVec Ideal Cert.KernelIdeal.S4096x4096 .f32) (ix2 b a) := by
  unfold val_main_v4 val_main_cst
  exact (broadcastInDim_apply _ bcast_S_S4096x4096 _ (ix2 a b) ix0 (fun a => a.elim0)).trans
    (broadcastInDim_apply _ Cert.KernelIdeal.Facts₀.bcast_S_S4096x4096 _ (ix2 b a) ix0 (fun a => a.elim0)).symm

/-- The reference's scattered array is the kernel program's, transposed. -/
theorem weights_transposed (x1 : IVec S1600000x2 32) (x2 : S1600000.Idx → EReal) (o i : Fin 4096) :
    val_main_v18 (F := Ideal) x1 x2 (ix2 o i) = Cert.KernelIdeal.HostSide.weights (F := Ideal) x1 x2 (ix2 i o) := by
  have e0 : ∀ j : Fin 1600000, val_main_v17 (F := Ideal) x1 (ix2 j 0) = Cert.KernelIdeal.HostSide.pairs x1 (ix2 j 1) :=
    fun j => (ref_table_fst x1 j).trans ((congrFun (first_col x1 _) (ix1 j)).trans (ker_table_snd x1 j).symm)
  have e1 : ∀ j : Fin 1600000, val_main_v17 (F := Ideal) x1 (ix2 j 1) = Cert.KernelIdeal.HostSide.pairs x1 (ix2 j 0) :=
    fun j => (ref_table_snd x1 j).trans ((congrFun (second_col x1 _) (ix1 j)).trans (ker_table_fst x1 j).symm)
  unfold val_main_v18 Cert.KernelIdeal.HostSide.weights
  exact Cert.ScatterPairs.scatter_swap scatter_S4096x4096_S1600000x2_S1600000_n_01_01_1 rfl rfl rfl rfl
    Cert.KernelIdeal.scatter_S4096x4096_S1600000x2_S1600000_n_01_01_1 rfl rfl rfl rfl
    (val_main_v4 (F := Ideal))
    (broadcastInDim Cert.KernelIdeal.S4096x4096 ![] Cert.KernelIdeal.Facts₀.bcast_S_S4096x4096
      (constant (F := Ideal) Cert.KernelIdeal.S_ .f32 0x00000000#32))
    (val_main_v17 (F := Ideal) x1) (Cert.KernelIdeal.HostSide.pairs x1) x2 zeros_agree e0 e1 o i

/-- So the reference's result is the layer of the activations and the kernel program's scattered weights. -/
theorem result_eq (x0 : S8192x4096.Idx → EReal) (x1 : IVec S1600000x2 32) (x2 : S1600000.Idx → EReal) :
    val_main_v20 (F := Ideal) x0 x1 x2 = layer x0 (Cert.KernelIdeal.HostSide.weights (F := Ideal) x1 x2) := by
  funext i
  rw [result_apply]
  unfold layer
  refine congrArg (fun s => max s (Ideal.ofBits .f32 0x00000000#32)) (Finset.sum_congr rfl fun k _ => ?_)
  exact congrArg (fun s => x0 (ix2 (i 0) k) * s) (weights_transposed x1 x2 (i 1) k)

end Cert.ReferenceIdeal.Layer

end
-- ==== Proof.lean ====
/-
  A sparse linear layer with a positive part, against its dense reference.

  Both programs scatter-add 1.6 million values into a 4096 × 4096 array of zeros and multiply the 8192 × 4096
  activations by it, keeping the positive part.  The reference builds the array as (output unit, input feature) and
  contracts the activations with its second axis; the kernel's program builds it as (input feature, output unit) on the
  host, and its matrix kernel contracts with the first axis, over a grid of 8 × 4 output blocks and two reduction steps
  that accumulate in a scratch buffer.  Over the extended reals the two results are the same array:

    · the two scatters use the index table's two columns in opposite orders, each column treated alike, so the two
      arrays are each other's transposes (ScatterPairs, RefValue);
    · a matrix product accumulated over the first and then the last 2048 input features, from a cleared accumulator,
      is the sum over all 4096 (Dense, KPair), and the 32 stored blocks tile the result (KValue);
    · the narrower float format the kernel's operands are changed to is the identity there (KValue).

  Nothing in the comparison needs the inputs to be finite, and it holds for every integer index table: an update whose
  pair falls outside the array is dropped by both programs alike.  The idealization rewrote no operation, so the
  preservation claim is trivial; the three frames are the generated ones.
-/
import proofs.«111190_j13795434954806_2_alg».proof.Defs
import proofs.«111190_j13795434954806_2_alg».proof.Proof.Gen.Kernel
import proofs.«111190_j13795434954806_2_alg».proof.Proof.Gen.Kernel.Frame
import proofs.«111190_j13795434954806_2_alg».proof.Proof.Gen.KernelIdeal
import proofs.«111190_j13795434954806_2_alg».proof.Proof.Gen.KernelIdeal.Frame
import proofs.«111190_j13795434954806_2_alg».proof.Proof.Gen.KernelIdeal.Value
import proofs.«111190_j13795434954806_2_alg».proof.Proof.Gen.ReferenceIdeal
import proofs.«111190_j13795434954806_2_alg».proof.Proof.Gen.ReferenceIdeal.Run
import proofs.«111190_j13795434954806_2_alg».proof.Proof.Gen.ReferenceIdeal.Read
import proofs.«111190_j13795434954806_2_alg».proof.Proof.Gen.Pre_finite_inputs
import proofs.«111190_j13795434954806_2_alg».proof.Proof.KValue
import proofs.«111190_j13795434954806_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer of the activations and the weights scattered as (input feature,
    output unit): the kernel's by reading its blocks, the reference's by transposing its own scattered array. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v20_eq _ _ _).trans (Cert.ReferenceIdeal.Layer.result_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
